-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S16x16 : Shape := ⟨2, ![16, 16]⟩
abbrev S16 : Shape := ⟨1, ![16]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S8x16x512x512 .f32) (main_arg1 : FVec F S16x16 .f32) (main_arg2 : FVec F S16 .f32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S16x16 .f32 := Host.absf main_arg1
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S8x16x512x512 : Shape := ⟨4, ![8, 16, 512, 512]⟩
abbrev S16x16 : Shape := ⟨2, ![16, 16]⟩
abbrev S16 : Shape := ⟨1, ![16]⟩
abbrev S16x1 : Shape := ⟨2, ![16, 1]⟩
abbrev S_ : Shape := ⟨0, ![]⟩
abbrev S16x7 : Shape := ⟨2, ![16, 7]⟩
abbrev S16x24 : Shape := ⟨2, ![16, 24]⟩
abbrev S1x16x64x512 : Shape := ⟨4, ![1, 16, 64, 512]⟩
abbrev S16x64x512 : Shape := ⟨3, ![16, 64, 512]⟩
abbrev S16x32768 : Shape := ⟨2, ![16, 32768]⟩
abbrev S8x16 : Shape := ⟨2, ![8, 16]⟩
abbrev S8x32768 : Shape := ⟨2, ![8, 32768]⟩
abbrev S24x32768 : Shape := ⟨2, ![24, 32768]⟩

abbrev nBuf : Space → Nat
  | .hbm => 8
  | .vmem => 5
  | .smem => 0
  | _ => 0

abbrev bufTy : (tb : Table) → Fin (tcTables nBuf tb) → BufTy
  | .hbm, ⟨0, _⟩ => ⟨S8x16x512x512, .f32⟩
  | .hbm, ⟨1, _⟩ => ⟨S16x16, .f32⟩
  | .hbm, ⟨2, _⟩ => ⟨S16, .f32⟩
  | .hbm, ⟨3, _⟩ => ⟨S16x1, .f32⟩
  | .hbm, ⟨4, _⟩ => ⟨S_, .f32⟩
  | .hbm, ⟨5, _⟩ => ⟨S16x7, .f32⟩
  | .hbm, ⟨6, _⟩ => ⟨S16x24, .f32⟩
  | .hbm, ⟨7, _⟩ => ⟨S8x16x512x512, .f32⟩
  | .local _ .vmem, ⟨0, _⟩ => ⟨S1x16x64x512, .f32⟩
  | .local _ .vmem, ⟨1, _⟩ => ⟨S1x16x64x512, .f32⟩
  | .local _ .vmem, ⟨2, _⟩ => ⟨S16x24, .f32⟩
  | .local _ .vmem, ⟨3, _⟩ => ⟨S1x16x64x512, .f32⟩
  | .local _ .vmem, ⟨4, _⟩ => ⟨S1x16x64x512, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S16_S16x1 : S16.ShapeCasts S16x1
  bcast_S_S16x7 : S_.BroadcastsInDim S16x7 (![] : Fin 0 → Fin S16x7.rank)
  concatenates_S16x16_S16x1_S16x7_S16x24_d1 : Shape.Concatenates [S16x16, S16x1, S16x7] S16x24 1
  inb_S1x16x64x512_S1x16x64x512_0_0_0_0 : ∀ a, (![0, 0, 0, 0] : Fin 4 → Nat) a + S1x16x64x512.size a ≤ S1x16x64x512.size a
  h_S1x16x64x512 : 0 < S1x16x64x512.numel
  shapeCasts_S1x16x64x512_S16x64x512 : S1x16x64x512.ShapeCasts S16x64x512
  shapeCasts_S16x64x512_S16x32768 : S16x64x512.ShapeCasts S16x32768
  bitsLt_bf16_f32 : FTy.bits .bf16 < FTy.bits .f32
  concatenates_S16x32768_S8x32768_S24x32768_d0 : Shape.Concatenates [S16x32768, S8x32768] S24x32768 0
  inb_S16x24_S16x24_0_0 : ∀ a, (![0, 0] : Fin 2 → Nat) a + S16x24.size a ≤ S16x24.size a
  h_S16x24 : 0 < S16x24.numel
  shapeCasts_S16x24_S16x24 : S16x24.ShapeCasts S16x24
  shapeCasts_S16x32768_S16x64x512 : S16x32768.ShapeCasts S16x64x512
  shapeCasts_S16x64x512_S1x16x64x512 : S16x64x512.ShapeCasts S1x16x64x512
  dot_S8x16_S16x32768_S8x32768_1_0_0_1_n_n_wf : DotDims.WF S8x16 S16x32768 S8x32768 [1] [0] [0] [1] [] []
  dot_S16x24_S24x32768_S16x32768_1_0_0_1_n_n_wf : DotDims.WF S16x24 S24x32768 S16x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x64x512.size a ≤ S8x16x512x512.size a
  hwx0_0 : ∀ i : grid0.Coords, EltTy.bits .f32 = 32 ∨ (Rect.block (s := S8x16x512x512) S1x16x64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x24.size a ≤ S16x24.size a
  hwx0_1 : ∀ i : grid0.Coords, EltTy.bits .f32 = 32 ∨ (Rect.block (s := S16x24) S16x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x64x512.size a ≤ S8x16x512x512.size a
  hwx0_2 : ∀ i : grid0.Coords, EltTy.bits .f32 = 32 ∨ (Rect.block (s := S8x16x512x512) S1x16x64x512.size (cc0_transform_2 i) (hinb0_2 i)).WholeWords (EltTy.packing .f32)

variable [Facts₀]

def dot_S8x16_S16x32768_S8x32768_1_0_0_1_n_n : DotDims S8x16 S16x32768 S8x32768 where
  lhsContracting := [1]
  rhsContracting := [0]
  lhsNonContracting := [0]
  rhsNonContracting := [1]
  lhsBatch := []
  rhsBatch := []
  wf := dot_S8x16_S16x32768_S8x32768_1_0_0_1_n_n_wf
def dot_S16x24_S24x32768_S16x32768_1_0_0_1_n_n : DotDims S16x24 S24x32768 S16x32768 where
  lhsContracting := [1]
  rhsContracting := [0]
  lhsNonContracting := [0]
  rhsNonContracting := [1]
  lhsBatch := []
  rhsBatch := []
  wf := dot_S16x24_S24x32768_S16x32768_1_0_0_1_n_n_wf

abbrev win0_0 : Pipeline.Window sig grid0 :=
  Pipeline.Window.ofSpec (Memref.whole main_arg0) S1x16x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x24.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x16x64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S16x16 : Shape := ⟨2, ![16, 16]⟩
abbrev S16 : Shape := ⟨1, ![16]⟩
abbrev S8x512x512x16 : Shape := ⟨4, ![8, 512, 512, 16]⟩
abbrev S_ : Shape := ⟨0, ![]⟩
abbrev S8x512x512 : Shape := ⟨3, ![8, 512, 512]⟩
abbrev S1x1x1x16 : Shape := ⟨4, ![1, 1, 1, 16]⟩
abbrev S8x512x512x1 : Shape := ⟨4, ![8, 512, 512, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S16x16, .f32⟩
  | .hbm, ⟨2, _⟩ => ⟨S16, .f32⟩
  | .hbm, ⟨3, _⟩ => ⟨S8x512x512x16, .f32⟩
  | .hbm, ⟨4, _⟩ => ⟨S_, .f32⟩
  | .hbm, ⟨5, _⟩ => ⟨S8x512x512x16, .f32⟩
  | .hbm, ⟨6, _⟩ => ⟨S8x512x512x16, .i1⟩
  | .hbm, ⟨7, _⟩ => ⟨S_, .i1⟩
  | .hbm, ⟨8, _⟩ => ⟨S8x512x512, .i1⟩
  | .hbm, ⟨9, _⟩ => ⟨S8x512x512x16, .f32⟩
  | .hbm, ⟨10, _⟩ => ⟨S1x1x1x16, .f32⟩
  | .hbm, ⟨11, _⟩ => ⟨S8x512x512x16, .f32⟩
  | .hbm, ⟨12, _⟩ => ⟨S8x512x512x16, .f32⟩
  | .hbm, ⟨13, _⟩ => ⟨S8x512x512x1, .i1⟩
  | .hbm, ⟨14, _⟩ => ⟨S8x512x512x1, .f32⟩
  | .hbm, ⟨15, _⟩ => ⟨S8x512x512x16, .f32⟩
  | .hbm, ⟨16, _⟩ => ⟨S8x512x512x16, .f32⟩
  | .hbm, ⟨17, _⟩ => ⟨S8x16x512x512, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S8x16x512x512_S8x512x512x16_0_2_3_1 : S8x16x512x512.Transposes [0, 2, 3, 1] S8x512x512x16
  bcast_S_S8x512x512x16 : S_.BroadcastsInDim S8x512x512x16 (![] : Fin 0 → Fin S8x512x512x16.rank)
  reducesTo_S8x512x512x16_S8x512x512_d3 : S8x512x512x16.ReducesTo [3] S8x512x512
  h_S_ : 0 < S_.numel
  bcast_S16_S1x1x1x16_3 : S16.BroadcastsInDim S1x1x1x16 (![3] : Fin 1 → Fin S1x1x1x16.rank)
  bcast_S1x1x1x16_S8x512x512x16_0_1_2_3 : S1x1x1x16.BroadcastsInDim S8x512x512x16 (![0, 1, 2, 3] : Fin 4 → Fin S8x512x512x16.rank)
  bcast_S8x512x512_S8x512x512x1_0_1_2 : S8x512x512.BroadcastsInDim S8x512x512x1 (![0, 1, 2] : Fin 3 → Fin S8x512x512x1.rank)
  bcast_S8x512x512x1_S8x512x512x16_0_1_2_3 : S8x512x512x1.BroadcastsInDim S8x512x512x16 (![0, 1, 2, 3] : Fin 4 → Fin S8x512x512x16.rank)
  transposes_S8x512x512x16_S8x16x512x512_0_3_1_2 : S8x512x512x16.Transposes [0, 3, 1, 2] S8x16x512x512
  dot_S8x512x512x16_S16x16_S8x512x512x16_3_1_012_0_n_n_wf : DotDims.WF S8x512x512x16 S16x16 S8x512x512x16 [3] [1] [0, 1, 2] [0] [] []

variable [Facts₀]

def dot_S8x512x512x16_S16x16_S8x512x512x16_3_1_012_0_n_n : DotDims S8x512x512x16 S16x16 S8x512x512x16 where
  lhsContracting := [3]
  rhsContracting := [1]
  lhsNonContracting := [0, 1, 2]
  rhsNonContracting := [0]
  lhsBatch := []
  rhsBatch := []
  wf := dot_S8x512x512x16_S16x16_S8x512x512x16_3_1_012_0_n_n_wf

class Facts : Prop extends Facts₀ where

variable [Facts]
-- ==== Proof.FrameK.lean ====
/-
  The frame of `Kernel`: every weakly fair execution of @main terminates, nothing faults, the three argument arrays end
  as they were launched, and the result array ends at what the grid's sixty-four write-backs leave.

  @main is four host operations that assemble the 16 x 24 matrix [W | b | 0] (a reshape of b to a column, a zero
  constant, its broadcast to 16 x 7, the concatenation along the columns), then one pipelined region over the grid
  8 x 8: point (n, j) stages image n's rows 64 j .. 64 j + 63 of x (all sixteen channels), keeps the whole 16 x 24 matrix
  staged from the first point on, and writes back the same rows of the result. The body loads both staged inputs whole,
  loads the output's staging buffer (the value is not used) and stores one whole block; so after the body the output's
  buffer is that one stored value, a function of the two input blocks alone.
-/
import proofs.«160969_g24369644438240_cont_8to1_380_7_alg».proof.Proof.Gen.Kernel.Launch
import proofs.«160969_g24369644438240_cont_8to1_380_7_alg».proof.Proof.Gen.Kernel.Skeleton
import proofs.«160969_g24369644438240_cont_8to1_380_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the four host operations. -/
abbrev V (c : Dev nD) (b : Ref sig .tc) : Buf (Elt F) ((c : Thread nD τ).loc b) :=
  StableHlo.after hostOps0 (fun b => m (c, b)) b

/-- None of the four host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0`, `main_cst`, `main_v1`, `main_v2` only: an argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the point fetched it or
    an earlier one did (the index has not moved since), for any proof data over the region-entry arrays whose body
    leaves an input's buffer alone. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_wc_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one store -/

/-- The whole-block rectangle of an input or output block, and of the staged matrix. -/
abbrev rBlk : Rect S1x16x64x512 := Rect.unit (s := S1x16x64x512) ![0, 0, 0, 0] S1x16x64x512.size inb_S1x16x64x512_S1x16x64x512_0_0_0_0
abbrev rWc : Rect S16x24 := Rect.unit (s := S16x24) ![0, 0] S16x24.size inb_S16x24_S16x24_0_0

/-- The output's staging buffer after the body: the one value stored through the whole-block rectangle, computed from
    the two input blocks. -/
def outBlk (x0 : Vec F S1x16x64x512 .f32) (x1 : Vec F S16x24 .f32) : Vec F S1x16x64x512 .f32 :=
  View.canon [⟨rBlk, k0_pay1 (View.ld x0 rBlk) (View.ld x1 rWc)⟩]

/-- The one store covers the buffer. -/
theorem cover_out (p0 : Vec F S1x16x64x512 .f32) (y : S1x16x64x512.Idx) :
    ∃ pc ∈ ([⟨rBlk, p0⟩] : List (View.Piece (Elt F) S1x16x64x512 .f32)), y ∈ pc.1.set :=
  View.cover_of_tiled [⟨rBlk, p0⟩] S1x16x64x512.size (by rfl) y

/-! ## The body's triple -/

set_option maxHeartbeats 1000000 in
/-- The body on whole staging buffers — the inputs' at contents `x0`, `x1`, the output's at anything — runs to its end
    with the inputs' buffers as they were and the output's at `outBlk x0 x1`. -/
theorem sound_kernel (c : Dev nD) (E : Set ℕ) (i : grid0.Coords) (arg2 : Memref sig .tc .vmem S1x16x64x512 .f32) (harg2 : arg2.IsWhole)
    (arg3 : Memref sig .tc .vmem S16x24 .f32) (harg3 : arg3.IsWhole) (arg4 : Memref sig .tc .vmem S1x16x64x512 .f32) (harg4 : arg4.IsWhole)
    (x0 : Vec F S1x16x64x512 .f32) (x1 : Vec F S16x24 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__spconv_kern i arg2 harg2 arg3 harg3 arg4 harg4) K := by
  simp only [cc0__spconv_kern_eq_skeleton]; unfold cc0__spconv_kern_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the pipeline on core `c`: the arrays as the region finds them; after the body at point `t` each
    input's buffer still at its block and the output's at `outBlk` of the two input blocks; no scratch, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_wc (c : Dev nD) (t : Fin cfg0.N) : (dats m 0 c).after 1 t = iblk m c 1 t := by dsimp only [dats]
theorem after_out (c : Dev nD) (t : Fin cfg0.N) : (dats m 0 c).after 2 t = outBlk (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_wc (c : Dev nD) (t : Fin cfg0.N) (d) : (dats m 0 c).before 1 t d = iblk m c 1 t :=
  before_wc_of m (dats m 0 c) (A_eq m c 1) (after_wc m c) t d

/-! ## The body obligation -/

/-- What the body is called with at point `t`: the invariant, the core's debt, and the three current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and the debt pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_wc]
  rw [show (dats m 0 c).Φ t.succ = (dats m 0 c).Φ t.castSucc from rfl,
    show (dats m 0 c).owesAt () t.succ = (dats m 0 c).owesAt () t.castSucc from rfl,
    after_x, after_wc, after_out]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the pipeline holds what the write-backs of the proof data leave and every other unscoped buffer what the
    region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the three argument arrays end as launched (`x` is window 0's array, an input; the weight and the bias
    are staged by no window and written by no host operation). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.Hand

end
-- ==== Proof.FrameKI.lean ====
/-
  The frame of `KernelIdeal`: every weakly fair execution of @main terminates, nothing faults, the three argument arrays end
  as they were launched, and the result array ends at what the grid's sixty-four write-backs leave.

  @main is four host operations that assemble the 16 x 24 matrix [W | b | 0] (a reshape of b to a column, a zero
  constant, its broadcast to 16 x 7, the concatenation along the columns), then one pipelined region over the grid
  8 x 8: point (n, j) stages image n's rows 64 j .. 64 j + 63 of x (all sixteen channels), keeps the whole 16 x 24 matrix
  staged from the first point on, and writes back the same rows of the result. The body loads both staged inputs whole,
  loads the output's staging buffer (the value is not used) and stores one whole block; so after the body the output's
  buffer is that one stored value, a function of the two input blocks alone.
-/
import proofs.«160969_g24369644438240_cont_8to1_380_7_alg».proof.Proof.Gen.KernelIdeal.Launch
import proofs.«160969_g24369644438240_cont_8to1_380_7_alg».proof.Proof.Gen.KernelIdeal.Skeleton
import proofs.«160969_g24369644438240_cont_8to1_380_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the four host operations. -/
abbrev V (c : Dev nD) (b : Ref sig .tc) : Buf (Elt F) ((c : Thread nD τ).loc b) :=
  StableHlo.after hostOps0 (fun b => m (c, b)) b

/-- None of the four host operations allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operations write `main_v0`, `main_cst`, `main_v1`, `main_v2` only: an argument array is found as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.reshape_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, whether the point fetched it or
    an earlier one did (the index has not moved since), for any proof data over the region-entry arrays whose body
    leaves an input's buffer alone. -/
theorem before_x_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_wc_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's one store -/

/-- The whole-block rectangle of an input or output block, and of the staged matrix. -/
abbrev rBlk : Rect S1x16x64x512 := Rect.unit (s := S1x16x64x512) ![0, 0, 0, 0] S1x16x64x512.size inb_S1x16x64x512_S1x16x64x512_0_0_0_0
abbrev rWc : Rect S16x24 := Rect.unit (s := S16x24) ![0, 0] S16x24.size inb_S16x24_S16x24_0_0

/-- The output's staging buffer after the body: the one value stored through the whole-block rectangle, computed from
    the two input blocks. -/
def outBlk (x0 : Vec F S1x16x64x512 .f32) (x1 : Vec F S16x24 .f32) : Vec F S1x16x64x512 .f32 :=
  View.canon [⟨rBlk, k0_pay1 (View.ld x0 rBlk) (View.ld x1 rWc)⟩]

/-- The one store covers the buffer. -/
theorem cover_out (p0 : Vec F S1x16x64x512 .f32) (y : S1x16x64x512.Idx) :
    ∃ pc ∈ ([⟨rBlk, p0⟩] : List (View.Piece (Elt F) S1x16x64x512 .f32)), y ∈ pc.1.set :=
  View.cover_of_tiled [⟨rBlk, p0⟩] S1x16x64x512.size (by rfl) y

/-! ## The body's triple -/

set_option maxHeartbeats 1000000 in
/-- The body on whole staging buffers — the inputs' at contents `x0`, `x1`, the output's at anything — runs to its end
    with the inputs' buffers as they were and the output's at `outBlk x0 x1`. -/
theorem sound_kernel (c : Dev nD) (E : Set ℕ) (i : grid0.Coords) (arg2 : Memref sig .tc .vmem S1x16x64x512 .f32) (harg2 : arg2.IsWhole)
    (arg3 : Memref sig .tc .vmem S16x24 .f32) (harg3 : arg3.IsWhole) (arg4 : Memref sig .tc .vmem S1x16x64x512 .f32) (harg4 : arg4.IsWhole)
    (x0 : Vec F S1x16x64x512 .f32) (x1 : Vec F S16x24 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlk x0 x1)) -∗ K ⟨⟩))
      ⊢ wp frame (wpE (defs₀ (F := F)) Variants.none c none) E (cc0__spconv_kern i arg2 harg2 arg3 harg3 arg4 harg4) K := by
  simp only [cc0__spconv_kern_eq_skeleton]; unfold cc0__spconv_kern_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The pipeline's proof data -/

/-- The proof data of the pipeline on core `c`: the arrays as the region finds them; after the body at point `t` each
    input's buffer still at its block and the output's at `outBlk` of the two input blocks; no scratch, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_wc (c : Dev nD) (t : Fin cfg0.N) : (dats m 0 c).after 1 t = iblk m c 1 t := by dsimp only [dats]
theorem after_out (c : Dev nD) (t : Fin cfg0.N) : (dats m 0 c).after 2 t = outBlk (iblk m c 0 t) (iblk m c 1 t) := by dsimp only [dats]

theorem before_x (c : Dev nD) (t : Fin cfg0.N) (d) : (dats m 0 c).before 0 t d = iblk m c 0 t :=
  before_x_of m (dats m 0 c) (A_eq m c 0) (after_x m c) t d
theorem before_wc (c : Dev nD) (t : Fin cfg0.N) (d) : (dats m 0 c).before 1 t d = iblk m c 1 t :=
  before_wc_of m (dats m 0 c) (A_eq m c 1) (after_wc m c) t d

/-! ## The body obligation -/

/-- What the body is called with at point `t`: the invariant, the core's debt, and the three current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and the debt pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_wc]
  rw [show (dats m 0 c).Φ t.succ = (dats m 0 c).Φ t.castSucc from rfl,
    show (dats m 0 c).owesAt () t.succ = (dats m 0 c).owesAt () t.castSucc from rfl,
    after_x, after_wc, after_out]
  iintro ⟨HΦ, Ho, ⟨%d0, H0⟩, ⟨%d1, H1⟩, ⟨%d2, H2⟩⟩
  iapply (sound_kernel c Set.univ _ _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and in every final state each
    array of the pipeline holds what the write-backs of the proof data leave and every other unscoped buffer what the
    region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the three argument arrays end as launched (`x` is window 0's array, an input; the weight and the bias
    are staged by no window and written by no host operation). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Hand

end
-- ==== Proof.Spec.lean ====
/-
  What both programs compute, stated once over the literal shapes and importing neither program.

  Write x[n, c, h, w] for the input (8 images, 16 channels, 512 x 512 sites), W[o, c] for the 16 x 16 weight
  and b[o] for the bias. A site (n, h, w) is ACTIVE when some channel of x is non-zero there. The result is the
  per-site linear map, kept at the active sites and zero elsewhere:

      G[n, o, h, w] = (sum_c x[n, c, h, w] * W[o, c] + b[o]) * active(n, h, w).

  The kernel reaches the same numbers another way: it tests activity by  0 < sum_c |x[n, c, h, w]|, appends the 0/1
  activity row (eight copies of it) under the sixteen channel rows, and multiplies by the 16 x 24 matrix
  [W | b | 0 ... 0]:

      K[n, o, h, w] = sum_{k < 24} Wc[o, k] * aug[k],   aug[k] = x[n, k, h, w] (k < 16),  active(n, h, w) (16 <= k).

  Both forms are stated here; that they agree for finite inputs is proved in the algebra module.
-/
import Idealize.ShloMosaic.PureOps.Ideal
import Idealize.ShloMosaic.Lib.ValueIdx

noncomputable section

namespace Cert.SpConv

open Idealize.ShloMosaic Idealize.ShloMosaic.ValueIdx

/-- The input and the result: 8 images of 16 channels of 512 x 512 sites. -/
abbrev SX : Shape := ⟨4, ![8, 16, 512, 512]⟩
/-- The weight, [out channel, in channel]. -/
abbrev SW : Shape := ⟨2, ![16, 16]⟩
/-- The bias, per out channel. -/
abbrev SB : Shape := ⟨1, ![16]⟩
/-- One block of the kernel's grid: one image, all channels, 64 rows of sites. -/
abbrev SBlk : Shape := ⟨4, ![1, 16, 64, 512]⟩
/-- The augmented weight [W | b | 0]. -/
abbrev SWc : Shape := ⟨2, ![16, 24]⟩

open Classical in
/-- 1 at a site where some channel of `x` is non-zero, 0 elsewhere. -/
def active (x : SX.Idx → EReal) (n : Fin 8) (h w : Fin 512) : EReal :=
  if ∃ c : Fin 16, x (ix4 n c h w) ≠ 0 then 1 else 0

/-- The reference's number at (n, o, h, w): the linear map of the site's channels plus the bias, times the site's activity. -/
def Gat (x : SX.Idx → EReal) (W : SW.Idx → EReal) (b : SB.Idx → EReal) (n : Fin 8) (o : Fin 16) (h w : Fin 512) : EReal :=
  ((∑ c : Fin 16, x (ix4 n c h w) * W (ix2 o c)) + b (ix1 o)) * active x n h w

/-- The whole result array. -/
def G (x : SX.Idx → EReal) (W : SW.Idx → EReal) (b : SB.Idx → EReal) : SX.Idx → EReal :=
  fun i => Gat x W b (i 0) (i 1) (i 2) (i 3)

/-! ## The kernel's form, on one block -/

/-- The sum of the channels' absolute values at a site of a block. -/
def siteAbs (v : SBlk.Idx → EReal) (r : Fin 64) (w : Fin 512) : EReal :=
  ∑ c : Fin 16, max (v (ix4 (0 : Fin 1) c r w)) (-(v (ix4 (0 : Fin 1) c r w)))

open Classical in
/-- The kernel's activity test on a block: is the sum of absolute values positive. -/
def blockMask (v : SBlk.Idx → EReal) (r : Fin 64) (w : Fin 512) : EReal :=
  if 0 < siteAbs v r w then 1 else 0

/-- Row `k` of the augmented block at a site: a channel for `k < 16`, the activity for the eight rows below. -/
def augAt (v : SBlk.Idx → EReal) (k : Fin 24) (r : Fin 64) (w : Fin 512) : EReal :=
  if h : k.val < 16 then v (ix4 (0 : Fin 1) (⟨k.val, h⟩ : Fin 16) r w) else blockMask v r w

/-- What the kernel stores at (o, r, w) of a block: row `o` of the augmented weight against the augmented column. -/
def payAt (v : SBlk.Idx → EReal) (wc : SWc.Idx → EReal) (o : Fin 16) (r : Fin 64) (w : Fin 512) : EReal :=
  ∑ k : Fin 24, wc (ix2 o k) * augAt v k r w

/-! ## The kernel's form, on the whole array -/

/-- The sum of the channels' absolute values at a site of the whole input. -/
def siteAbsX (x : SX.Idx → EReal) (n : Fin 8) (h w : Fin 512) : EReal :=
  ∑ c : Fin 16, max (x (ix4 n c h w)) (-(x (ix4 n c h w)))

open Classical in
/-- The kernel's activity test on the whole input. -/
def maskX (x : SX.Idx → EReal) (n : Fin 8) (h w : Fin 512) : EReal :=
  if 0 < siteAbsX x n h w then 1 else 0

/-- Row `k` of the augmented column at a site of the whole input. -/
def augX (x : SX.Idx → EReal) (k : Fin 24) (n : Fin 8) (h w : Fin 512) : EReal :=
  if hk : k.val < 16 then x (ix4 n (⟨k.val, hk⟩ : Fin 16) h w) else maskX x n h w

/-- The kernel's number at (n, o, h, w). -/
def KernAt (x : SX.Idx → EReal) (wc : SWc.Idx → EReal) (n : Fin 8) (o : Fin 16) (h w : Fin 512) : EReal :=
  ∑ k : Fin 24, wc (ix2 o k) * augX x k n h w

end Cert.SpConv

end
-- ==== Proof.Algebra.lean ====
/-
  The kernel's arrangement and the reference's arrangement give the same number at every site.

  The kernel's number at (n, o, h, w) is a sum of 24 products, row o of the augmented weight [W | b | 0 ... 0] against
  the augmented column (the sixteen channels of the site, then eight copies of the site's 0/1 activity). Cut the sum
  at 16: the first sixteen products are W[o, c] * x[n, c, h, w]; of the last eight only the first has a non-zero
  weight, b[o], and it multiplies the activity; the other seven are 0 * activity = 0. So

      K[n, o, h, w] = sum_c W[o, c] * x[n, c, h, w] + b[o] * mask(n, h, w).

  The kernel's mask asks whether sum_c |x[n, c, h, w]| is positive, with |t| written max t (-t). Every |t| is
  non-negative and is zero exactly when t is zero, and a sum of non-negative terms is positive exactly when one of
  its terms is, so the mask is the reference's activity: 1 when some channel is non-zero, 0 otherwise.

  At an active site both sides are sum_c x * W + b (commute the products; multiplying by 1 changes nothing). At an
  inactive site every channel is 0, so the kernel's side is sum_c W[o, c] * 0 + b[o] * 0 = 0 and the reference's side
  is (...) * 0 = 0.

  The law needs no finiteness of the inputs: on the extended reals 0 * a = 0 and a * 0 = 0 for every a, infinite or
  not, and the activity test is a sum of non-negative terms, where an infinite term does no harm (the sum never meets
  an infinity of each sign), so every step above holds for arbitrary extended-real entries of x, W and b.
-/
import proofs.«160969_g24369644438240_cont_8to1_380_7_alg».proof.Proof.Spec
import Mathlib.Data.EReal.Operations
import Mathlib.Algebra.BigOperators.Fin
import Mathlib.Algebra.Order.BigOperators.Group.Finset

noncomputable section

namespace Cert.SpConv

open Idealize.ShloMosaic Idealize.ShloMosaic.ValueIdx

/-! ## The absolute value written as a maximum -/

/-- `max t (-t)` is never negative. -/
theorem maxNeg_nonneg (t : EReal) : 0 ≤ max t (-t) := by
  rcases le_total 0 t with ht | ht
  · exact le_max_of_le_left ht
  · exact le_max_of_le_right (EReal.neg_nonneg.mpr ht)

/-- `max t (-t)` is positive exactly when `t` is not zero. -/
theorem maxNeg_pos_iff (t : EReal) : 0 < max t (-t) ↔ t ≠ 0 := by
  constructor
  · rintro hpos rfl
    simp at hpos
  · intro hne
    rcases lt_or_gt_of_ne hne with hlt | hgt
    · exact lt_max_of_lt_right (by
        have := EReal.neg_lt_neg_iff.mpr hlt
        simpa using this)
    · exact lt_max_of_lt_left hgt

/-! ## The kernel's activity test is the reference's -/

/-- The sum of absolute values at a site is positive exactly when some channel is non-zero there. -/
theorem siteAbsX_pos_iff (x : SX.Idx → EReal) (n : Fin 8) (h w : Fin 512) :
    0 < siteAbsX x n h w ↔ ∃ c : Fin 16, x (ix4 n c h w) ≠ 0 := by
  unfold siteAbsX
  rw [Finset.sum_pos_iff_of_nonneg (fun c _ => maxNeg_nonneg _)]
  constructor
  · rintro ⟨c, _, hc⟩
    exact ⟨c, (maxNeg_pos_iff _).mp hc⟩
  · rintro ⟨c, hc⟩
    exact ⟨c, Finset.mem_univ c, (maxNeg_pos_iff _).mpr hc⟩

/-- The kernel's mask is the reference's activity. -/
theorem maskX_eq_active (x : SX.Idx → EReal) (n : Fin 8) (h w : Fin 512) :
    maskX x n h w = active x n h w := by
  unfold maskX active
  by_cases hc : ∃ c : Fin 16, x (ix4 n c h w) ≠ 0
  · rw [if_pos hc, if_pos ((siteAbsX_pos_iff x n h w).mpr hc)]
  · rw [if_neg hc, if_neg (fun hp => hc ((siteAbsX_pos_iff x n h w).mp hp))]

/-! ## Cutting the sum of 24 products at 16 -/

/-- A sum over 24 rows is the sum over the first sixteen plus the sum over the eight below. -/
theorem sum_fin24 (f : Fin 24 → EReal) :
    ∑ k : Fin 24, f k
      = (∑ c : Fin 16, f ⟨c.val, by omega⟩) + ∑ j : Fin 8, f ⟨16 + j.val, by omega⟩ :=
  Fin.sum_univ_add (a := 16) (b := 8) f

/-- The kernel's number: the sixteen channel products plus the bias times the mask. -/
theorem kernAt_split (x : SX.Idx → EReal) (W : SW.Idx → EReal) (b : SB.Idx → EReal) (wc : SWc.Idx → EReal)
    (hwc : ∀ (o : Fin 16) (k : Fin 24), wc (ValueIdx.ix2 o k) =
        if hk : k.val < 16 then W (ValueIdx.ix2 o (⟨k.val, hk⟩ : Fin 16)) else if k.val = 16 then b (ValueIdx.ix1 o) else 0)
    (n : Fin 8) (o : Fin 16) (h w : Fin 512) :
    KernAt x wc n o h w
      = (∑ c : Fin 16, W (ix2 o c) * x (ix4 n c h w)) + b (ix1 o) * maskX x n h w := by
  -- the first sixteen rows: a weight against a channel
  have hW : ∀ c : Fin 16, wc (ix2 o (⟨c.val, by omega⟩ : Fin 24)) = W (ix2 o c) := by
    intro c
    rw [hwc]
    exact dif_pos c.isLt
  have hX : ∀ c : Fin 16, augX x (⟨c.val, by omega⟩ : Fin 24) n h w = x (ix4 n c h w) := by
    intro c
    unfold augX
    exact dif_pos c.isLt
  -- the eight rows below: the bias in the first, zero in the other seven, against the mask
  have hB : ∀ j : Fin 8, wc (ix2 o (⟨16 + j.val, by omega⟩ : Fin 24))
      = if j.val = 0 then b (ix1 o) else 0 := by
    intro j
    rw [hwc]
    have h16 : ¬ ((⟨16 + j.val, by omega⟩ : Fin 24).val < 16) := by
      show ¬ (16 + j.val < 16)
      omega
    rw [dif_neg h16]
    by_cases hj : j.val = 0
    · rw [if_pos hj, if_pos (show (16 + j.val = 16) by omega)]
    · rw [if_neg hj, if_neg (show ¬ (16 + j.val = 16) by omega)]
  have hM : ∀ j : Fin 8, augX x (⟨16 + j.val, by omega⟩ : Fin 24) n h w = maskX x n h w := by
    intro j
    unfold augX
    exact dif_neg (show ¬ (16 + j.val < 16) by omega)
  -- only the first of the eight survives
  have h8 : ∑ j : Fin 8, (if j.val = 0 then b (ix1 o) else 0) * maskX x n h w
      = b (ix1 o) * maskX x n h w := by
    rw [Finset.sum_eq_single (0 : Fin 8)]
    · rw [if_pos (show ((0 : Fin 8).val = 0) from rfl)]
    · intro j _ hj
      rw [if_neg (show ¬ (j.val = 0) from fun h0 => hj (Fin.ext h0)), zero_mul]
    · intro h0
      exact absurd (Finset.mem_univ _) h0
  unfold KernAt
  rw [sum_fin24]
  simp only [hW, hX, hB, hM]
  rw [h8]

/-! ## The two arrangements agree -/

/-- At every site the kernel's number is the reference's. -/
theorem kern_eq_G (x : SX.Idx → EReal) (W : SW.Idx → EReal) (b : SB.Idx → EReal) (wc : SWc.Idx → EReal)
    (hwc : ∀ (o : Fin 16) (k : Fin 24), wc (ValueIdx.ix2 o k) =
        if hk : k.val < 16 then W (ValueIdx.ix2 o (⟨k.val, hk⟩ : Fin 16)) else if k.val = 16 then b (ValueIdx.ix1 o) else 0)
    (n : Fin 8) (o : Fin 16) (h w : Fin 512) :
    KernAt x wc n o h w = Gat x W b n o h w := by
  rw [kernAt_split x W b wc hwc n o h w, maskX_eq_active]
  unfold Gat active
  by_cases hc : ∃ c : Fin 16, x (ix4 n c h w) ≠ 0
  · -- an active site: both sides are the linear map plus the bias
    simp only [if_pos hc, mul_one]
    congr 1
    exact Finset.sum_congr rfl fun c _ => mul_comm _ _
  · -- an inactive site: every channel is zero, and both sides are zero
    have hz : ∀ c : Fin 16, x (ix4 n c h w) = 0 := fun c => by
      by_contra hne
      exact hc ⟨c, hne⟩
    simp only [if_neg hc, mul_zero, add_zero]
    exact Finset.sum_eq_zero fun c _ => by rw [hz c, mul_zero]

end Cert.SpConv

end
-- ==== Proof.Payload.lean ====
/-
  What the kernel body stores, read at an index.

  The body's one stored value is a pure term of the loaded block x : [1,16,64,512] and the loaded augmented weight
  Wc : [16,24]. Flattening the sites of the block to q = 512 r + w, it forms the [16, 32768] matrix X[c, q] = x[0, c, r, w],
  multiplies the all-ones [8,16] matrix by |X| (every row of the product is the site's sum of absolute values),
  compares that sum with zero to get eight equal 0/1 rows, stacks them under the sixteen rows of X into a [24, 32768]
  matrix, and multiplies Wc by it. Read at (0, o, r, w) this is  sum_{k < 24} Wc[o, k] * aug[k]  with aug the channel
  value for k < 16 and the 0/1 activity below: the specification's payAt.
-/
import proofs.«160969_g24369644438240_cont_8to1_380_7_alg».proof.Proof.Spec
import proofs.«160969_g24369644438240_cont_8to1_380_7_alg».proof.Proof.Gen.KernelIdeal.Skeleton
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.SpConv.Pay

open Idealize.ShloMosaic Idealize.ShloMosaic.ValueIdx Cert.KernelIdeal

/-- The flat site index of row `r`, lane `w` of a block. -/
def site (r : Fin 64) (w : Fin 512) : Fin 32768 := ⟨512 * r.val + w.val, by have := r.isLt; have := w.isLt; omega⟩

/-- The block flattened to [16, 32768] reads, at channel `c` and site `512 r + w`, the block at (0, c, r, w). -/
theorem flat_apply (x : FVec Ideal S1x16x64x512 .f32) (h1 : S1x16x64x512.ShapeCasts S16x64x512)
    (h2 : S16x64x512.ShapeCasts S16x32768) (c : Fin 16) (r : Fin 64) (w : Fin 512) :
    shapeCast S16x32768 (shapeCast S16x64x512 x h1) h2 (ix2 c (site r w)) = x (ix4 (0 : Fin 1) c r w) := by
  refine (shapeCast_apply _ h2 (ix2 c (site r w)) (ix3 c r w) (by
    rw [Shape.rowMajor_val_two, Shape.rowMajor_val_three]
    show (c.val * 64 + r.val) * 512 + w.val = c.val * 32768 + (512 * r.val + w.val)
    omega)).trans ?_
  exact shapeCast_apply _ h1 (ix3 c r w) (ix4 (0 : Fin 1) c r w) (by
    rw [Shape.rowMajor_val_three, Shape.rowMajor_val_four]
    show (((0 : Nat) * 16 + c.val) * 64 + r.val) * 512 + w.val = (c.val * 64 + r.val) * 512 + w.val
    omega)

/-- And back: a [16, 32768] matrix reshaped to a block reads, at (0, o, r, w), the matrix at row `o`, site `512 r + w`. -/
theorem unflat_apply (y : FVec Ideal S16x32768 .f32) (h1 : S16x32768.ShapeCasts S16x64x512)
    (h2 : S16x64x512.ShapeCasts S1x16x64x512) (o : Fin 16) (r : Fin 64) (w : Fin 512) :
    shapeCast S1x16x64x512 (shapeCast S16x64x512 y h1) h2 (ix4 (0 : Fin 1) o r w) = y (ix2 o (site r w)) := by
  refine (shapeCast_apply _ h2 (ix4 (0 : Fin 1) o r w) (ix3 o r w) (by
    rw [Shape.rowMajor_val_three, Shape.rowMajor_val_four]
    show (o.val * 64 + r.val) * 512 + w.val = (((0 : Nat) * 16 + o.val) * 64 + r.val) * 512 + w.val
    omega)).trans ?_
  exact shapeCast_apply _ h1 (ix3 o r w) (ix2 o (site r w)) (by
    rw [Shape.rowMajor_val_two, Shape.rowMajor_val_three]
    show o.val * 32768 + (512 * r.val + w.val) = (o.val * 64 + r.val) * 512 + w.val
    omega)

/-! ### The product of the [8,16] matrix with the [16, 32768] matrix, into a zero accumulator -/

theorem ones_lhs_0 (j : S8x32768.Idx) (q : dot_S8x16_S16x32768_S8x32768_1_0_0_1_n_n.contr.Idx) :
    (dot_S8x16_S16x32768_S8x32768_1_0_0_1_n_n.lhsIdx j q 0).val = (j 0).val := by
  unfold DotDims.lhsIdx
  rw [dif_neg (show ¬(0 : Fin S8x16.rank) ∈ dot_S8x16_S16x32768_S8x32768_1_0_0_1_n_n.lhsBatch by decide), dif_pos (show (0 : Fin S8x16.rank) ∈ dot_S8x16_S16x32768_S8x32768_1_0_0_1_n_n.lhsNonContracting by decide)]
  rfl
theorem ones_lhs_1 (j : S8x32768.Idx) (q : dot_S8x16_S16x32768_S8x32768_1_0_0_1_n_n.contr.Idx) :
    (dot_S8x16_S16x32768_S8x32768_1_0_0_1_n_n.lhsIdx j q 1).val = (q ⟨0, by decide⟩).val :=
  dot_S8x16_S16x32768_S8x32768_1_0_0_1_n_n.lhsIdx_val_of_single rfl j q
theorem ones_rhs_0 (j : S8x32768.Idx) (q : dot_S8x16_S16x32768_S8x32768_1_0_0_1_n_n.contr.Idx) :
    (dot_S8x16_S16x32768_S8x32768_1_0_0_1_n_n.rhsIdx j q 0).val = (q ⟨0, by decide⟩).val :=
  dot_S8x16_S16x32768_S8x32768_1_0_0_1_n_n.rhsIdx_val_of_single rfl j q
theorem ones_rhs_1 (j : S8x32768.Idx) (q : dot_S8x16_S16x32768_S8x32768_1_0_0_1_n_n.contr.Idx) :
    (dot_S8x16_S16x32768_S8x32768_1_0_0_1_n_n.rhsIdx j q 1).val = (j 1).val := by
  unfold DotDims.rhsIdx
  rw [dif_neg (show ¬(1 : Fin S16x32768.rank) ∈ dot_S8x16_S16x32768_S8x32768_1_0_0_1_n_n.rhsBatch by decide), dif_pos (show (1 : Fin S16x32768.rank) ∈ dot_S8x16_S16x32768_S8x32768_1_0_0_1_n_n.rhsNonContracting by decide)]
  rfl

/-- Entry (p, q) of the product is the sum over the sixteen channels of the row's entry times the column's. -/
theorem ones_matmul_apply (a : FVec Ideal S8x16 .bf16) (x : FVec Ideal S16x32768 .bf16) (p : Fin 8) (q : Fin 32768) :
    matmul dot_S8x16_S16x32768_S8x32768_1_0_0_1_n_n none a x (constant (F := Ideal) S8x32768 .f32 0x00000000#32) (ix2 p q)
      = ∑ c : Fin 16, a (ix2 p c) * x (ix2 c q) := by
  simp only [matmul]
  rw [Ideal.matmul_constant_zero_apply, ← Equiv.sum_comp (ValueIdx.contrEquiv1 dot_S8x16_S16x32768_S8x32768_1_0_0_1_n_n 16 rfl rfl).symm]
  refine Finset.sum_congr rfl fun k _ => ?_
  have hk := ValueIdx.contrEquiv1_symm_val dot_S8x16_S16x32768_S8x32768_1_0_0_1_n_n 16 rfl rfl k
  have el : dot_S8x16_S16x32768_S8x32768_1_0_0_1_n_n.lhsIdx (ix2 p q) ((ValueIdx.contrEquiv1 dot_S8x16_S16x32768_S8x32768_1_0_0_1_n_n 16 rfl rfl).symm k) = ix2 p k := funext fun b => Fin.ext (by
    match b with
    | ⟨0, _⟩ => exact ones_lhs_0 _ _
    | ⟨1, _⟩ => exact (ones_lhs_1 _ _).trans hk)
  have er : dot_S8x16_S16x32768_S8x32768_1_0_0_1_n_n.rhsIdx (ix2 p q) ((ValueIdx.contrEquiv1 dot_S8x16_S16x32768_S8x32768_1_0_0_1_n_n 16 rfl rfl).symm k) = ix2 k q := funext fun b => Fin.ext (by
    match b with
    | ⟨0, _⟩ => exact (ones_rhs_0 _ _).trans hk
    | ⟨1, _⟩ => exact ones_rhs_1 _ _)
  rw [el, er]

/-! ### The product of the [16,24] matrix with the [24, 32768] matrix, into a zero accumulator -/

theorem aug_lhs_0 (j : S16x32768.Idx) (q : dot_S16x24_S24x32768_S16x32768_1_0_0_1_n_n.contr.Idx) :
    (dot_S16x24_S24x32768_S16x32768_1_0_0_1_n_n.lhsIdx j q 0).val = (j 0).val := by
  unfold DotDims.lhsIdx
  rw [dif_neg (show ¬(0 : Fin S16x24.rank) ∈ dot_S16x24_S24x32768_S16x32768_1_0_0_1_n_n.lhsBatch by decide), dif_pos (show (0 : Fin S16x24.rank) ∈ dot_S16x24_S24x32768_S16x32768_1_0_0_1_n_n.lhsNonContracting by decide)]
  rfl
theorem aug_lhs_1 (j : S16x32768.Idx) (q : dot_S16x24_S24x32768_S16x32768_1_0_0_1_n_n.contr.Idx) :
    (dot_S16x24_S24x32768_S16x32768_1_0_0_1_n_n.lhsIdx j q 1).val = (q ⟨0, by decide⟩).val :=
  dot_S16x24_S24x32768_S16x32768_1_0_0_1_n_n.lhsIdx_val_of_single rfl j q
theorem aug_rhs_0 (j : S16x32768.Idx) (q : dot_S16x24_S24x32768_S16x32768_1_0_0_1_n_n.contr.Idx) :
    (dot_S16x24_S24x32768_S16x32768_1_0_0_1_n_n.rhsIdx j q 0).val = (q ⟨0, by decide⟩).val :=
  dot_S16x24_S24x32768_S16x32768_1_0_0_1_n_n.rhsIdx_val_of_single rfl j q
theorem aug_rhs_1 (j : S16x32768.Idx) (q : dot_S16x24_S24x32768_S16x32768_1_0_0_1_n_n.contr.Idx) :
    (dot_S16x24_S24x32768_S16x32768_1_0_0_1_n_n.rhsIdx j q 1).val = (j 1).val := by
  unfold DotDims.rhsIdx
  rw [dif_neg (show ¬(1 : Fin S24x32768.rank) ∈ dot_S16x24_S24x32768_S16x32768_1_0_0_1_n_n.rhsBatch by decide), dif_pos (show (1 : Fin S24x32768.rank) ∈ dot_S16x24_S24x32768_S16x32768_1_0_0_1_n_n.rhsNonContracting by decide)]
  rfl

/-- Entry (o, q) of the product is the sum over the twenty-four rows of the weight's entry times the column's. -/
theorem aug_matmul_apply (a : FVec Ideal S16x24 .f32) (x : FVec Ideal S24x32768 .f32) (o : Fin 16) (q : Fin 32768) :
    matmul dot_S16x24_S24x32768_S16x32768_1_0_0_1_n_n none a x (constant (F := Ideal) S16x32768 .f32 0x00000000#32) (ix2 o q)
      = ∑ k : Fin 24, a (ix2 o k) * x (ix2 k q) := by
  simp only [matmul]
  rw [Ideal.matmul_constant_zero_apply, ← Equiv.sum_comp (ValueIdx.contrEquiv1 dot_S16x24_S24x32768_S16x32768_1_0_0_1_n_n 24 rfl rfl).symm]
  refine Finset.sum_congr rfl fun k _ => ?_
  have hk := ValueIdx.contrEquiv1_symm_val dot_S16x24_S24x32768_S16x32768_1_0_0_1_n_n 24 rfl rfl k
  have el : dot_S16x24_S24x32768_S16x32768_1_0_0_1_n_n.lhsIdx (ix2 o q) ((ValueIdx.contrEquiv1 dot_S16x24_S24x32768_S16x32768_1_0_0_1_n_n 24 rfl rfl).symm k) = ix2 o k := funext fun b => Fin.ext (by
    match b with
    | ⟨0, _⟩ => exact aug_lhs_0 _ _
    | ⟨1, _⟩ => exact (aug_lhs_1 _ _).trans hk)
  have er : dot_S16x24_S24x32768_S16x32768_1_0_0_1_n_n.rhsIdx (ix2 o q) ((ValueIdx.contrEquiv1 dot_S16x24_S24x32768_S16x32768_1_0_0_1_n_n 24 rfl rfl).symm k) = ix2 k q := funext fun b => Fin.ext (by
    match b with
    | ⟨0, _⟩ => exact (aug_rhs_0 _ _).trans hk
    | ⟨1, _⟩ => exact aug_rhs_1 _ _)
  rw [el, er]

/-! ### The stack of the channel rows over the activity rows -/

/-- The stack of a [16, 32768] matrix over an [8, 32768] matrix reads, at row `k`, the first for `k < 16` and the
    second, sixteen rows up, from 16 on. -/
theorem stack_apply (x : FVec Ideal S16x32768 .f32) (y : FVec Ideal S8x32768 .f32)
    (h : Shape.Concatenates [S16x32768, S8x32768] S24x32768 0) (k : Fin 24) (q : Fin 32768) :
    concatenate S24x32768 0 [⟨S16x32768, x⟩, ⟨S8x32768, y⟩] h (ix2 k q)
      = if hk : k.val < 16 then x (ix2 (⟨k.val, hk⟩ : Fin 16) q)
        else y (ix2 (⟨k.val - 16, by have := k.isLt; omega⟩ : Fin 8) q) := by
  by_cases hk : k.val < 16
  · rw [dif_pos hk]
    exact concatenate_pair_apply_left 0 x y h (ix2 k q) rfl _ (fun b => by
      match b with
      | ⟨0, _⟩ => rfl
      | ⟨1, _⟩ => rfl)
  · rw [dif_neg hk]
    exact concatenate_pair_apply_right 0 x y h (ix2 k q) rfl rfl _
      (fun b hb => by
        match b with
        | ⟨0, _⟩ => exact absurd rfl hb
        | ⟨1, _⟩ => rfl)
      (by show (k.val - 16) + 16 = k.val; omega)

/-! ### The activity rows -/

/-- The all-ones matrix times the absolute values: every row of the product is, at a site, the sum over the channels
    of the absolute values there (rounding to the narrower format changes nothing on the extended reals). -/
theorem siteSum_apply (x : FVec Ideal S16x32768 .f32) (hlt : FTy.bits .bf16 < FTy.bits .f32) (p : Fin 8) (q : Fin 32768) :
    matmul dot_S8x16_S16x32768_S8x32768_1_0_0_1_n_n none (broadcast S8x16 (Scalar.ofBits (F := Ideal) .bf16 0x3F80#16))
        (truncf .bf16 (absf x) hlt) (constant (F := Ideal) S8x32768 .f32 0x00000000#32) (ix2 p q)
      = ∑ c : Fin 16, max (x (ix2 c q)) (-(x (ix2 c q))) := by
  refine (ones_matmul_apply _ _ p q).trans ?_
  refine Finset.sum_congr rfl fun c _ => ?_
  show Ideal.ofBits .bf16 0x3F80#16 * max (x (ix2 c q)) (-(x (ix2 c q))) = _
  rw [Ideal.ofBits_one_bf16, one_mul]

/-- The comparison with zero selecting between the literals one and zero is the 0/1 indicator of a positive entry. -/
theorem mask_apply (s : FVec Ideal S8x32768 .f32) (j : S8x32768.Idx) :
    select (cmpf .ogt s (broadcast S8x32768 (Scalar.ofBits (F := Ideal) .f32 0x00000000#32)))
        (broadcast S8x32768 (Scalar.ofBits (F := Ideal) .f32 0x3F800000#32))
        (broadcast S8x32768 (Scalar.ofBits (F := Ideal) .f32 0x00000000#32)) j
      = if 0 < s j then 1 else 0 := by
  show Scalar.select (Ideal.cmp .ogt (s j) (Ideal.ofBits .f32 0x00000000#32)) (Ideal.ofBits .f32 0x3F800000#32)
    (Ideal.ofBits .f32 0x00000000#32) = _
  rw [Ideal.ofBits_zero_f32, Ideal.ofBits_one_f32]
  by_cases h : 0 < s j
  · rw [if_pos h]
    show Scalar.select (BitVec.ofBool (decide (0 < s j))) 1 0 = 1
    rw [decide_eq_true h]
    exact select_one _ _
  · rw [if_neg h]
    show Scalar.select (BitVec.ofBool (decide (0 < s j))) 1 0 = 0
    rw [decide_eq_false h]
    exact select_zero _ _

/-! ### The stored value -/

/-- What the kernel body stores, at (0, o, r, w) of the block: row `o` of the augmented weight against the augmented
    column of the site. -/
theorem pay_apply (v0 : Vec Ideal Cert.KernelIdeal.S1x16x64x512 .f32) (v13 : Vec Ideal Cert.KernelIdeal.S16x24 .f32)
    (o : Fin 16) (r : Fin 64) (w : Fin 512) :
    Cert.KernelIdeal.Gen.k0_pay1 (F := Ideal) v0 v13 (ValueIdx.ix4 (0 : Fin 1) o r w) = Cert.SpConv.payAt v0 v13 o r w := by
  unfold Cert.KernelIdeal.Gen.k0_pay1
  refine (unflat_apply _ _ _ o r w).trans ?_
  refine (aug_matmul_apply _ _ o (site r w)).trans ?_
  unfold Cert.SpConv.payAt
  refine Finset.sum_congr rfl fun k _ => ?_
  rw [shapeCast_self]
  refine congrArg (v13 (ix2 o k) * ·) ?_
  refine (stack_apply _ _ _ k (site r w)).trans ?_
  unfold Cert.SpConv.augAt
  by_cases hk : k.val < 16
  · rw [dif_pos hk, dif_pos hk]
    exact flat_apply v0 _ _ _ r w
  · rw [dif_neg hk, dif_neg hk]
    refine (mask_apply _ _).trans ?_
    rw [siteSum_apply]
    simp only [flat_apply]
    unfold Cert.SpConv.blockMask Cert.SpConv.siteAbs
    by_cases h : 0 < ∑ c : Fin 16, max (v0 (ix4 (0 : Fin 1) c r w)) (-(v0 (ix4 (0 : Fin 1) c r w)))
    · rw [if_pos h]
    · rw [if_neg h]

end Cert.SpConv.Pay

end
-- ==== Proof.KernelValue.lean ====
/-
  The result array of the idealized kernel, as one function of the three argument arrays.

  The frame run leaves the result array at what the sixty-four write-backs of the grid leave. Point t = (n, j) writes
  back, into rows 64 j .. 64 j + 63 of image n (all sixteen output channels), the block the body stored; that block is,
  entry by entry, row o of the staged 16 x 24 matrix against the augmented column of the site — the sixteen channels of
  x at the site, then its 0/1 activity — and the staged block of x is x itself at (n, ., 64 j + r, .). So every point
  writes a block of ONE whole-array function, the blocks tile the array, and the array ends at that function.
  The staged matrix is what the four host operations assemble before the region: W in columns 0..15, b in column 16,
  zeros in columns 17..23. With that, the kernel's number at every index is the specification's.
-/
import proofs.«160969_g24369644438240_cont_8to1_380_7_alg».proof.Proof.Spec
import proofs.«160969_g24369644438240_cont_8to1_380_7_alg».proof.Proof.Algebra
import proofs.«160969_g24369644438240_cont_8to1_380_7_alg».proof.Proof.Payload
import proofs.«160969_g24369644438240_cont_8to1_380_7_alg».proof.Proof.FrameKI
import Idealize.ShloMosaic.Lib.Pipeline.Value
import Idealize.ShloMosaic.Lib.ValueIdx
import Idealize.ShloMosaic.Lib.StableHlo.Run
import Idealize.ShloMosaic.PureOps.Ideal.Laws

noncomputable section

namespace Cert.SpConv.KVal

open Cert.KernelIdeal Cert.KernelIdeal.Gen Cert.KernelIdeal.Hand
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The staged matrix [W | b | 0] -/

/-- A vector of sixteen entries cast to a column reads, at (i, 0), the vector at i. -/
theorem column_apply {α : Type} (x : (⟨1, ![16]⟩ : Shape).Idx → α) (h : (⟨1, ![16]⟩ : Shape).ShapeCasts ⟨2, ![16, 1]⟩)
    (i : Fin 16) (u : Fin 1) : shapeCast ⟨2, ![16, 1]⟩ x h (ix2 i u) = x (ix1 i) :=
  shapeCast_apply x h _ _ (by
    have hu : u.val = 0 := by omega
    rw [Shape.rowMajor_val_two, Shape.rowMajor_val_one]
    show i.val = i.val * 1 + u.val
    omega)

/-- What the four host operations leave in the matrix's buffer: the concatenation, along the columns, of W, of b as a
    column, and of a 16 x 7 block of zeros. -/
theorem wc_eq (c : Dev nD) : (V m c main_v2 : S16x24.Idx → EReal) =
    concatenate S16x24 1
      [⟨S16x16, m ((c : Thread nD τ).loc main_arg1)⟩,
       ⟨S16x1, fun i => shapeCast S16x1 (m ((c : Thread nD τ).loc main_arg2)) shapeCasts_S16_S16x1 i⟩,
       ⟨S16x7, broadcastInDim S16x7 ![] bcast_S_S16x7 (constant (F := Ideal) S_ .f32 0x00000000#32)⟩]
      concatenates_S16x16_S16x1_S16x7_S16x24_d1 := by
  dsimp only [V, hostOps0]
  after_results
  dsimp only [Matrix.cons_val_zero, Matrix.cons_val_one, Matrix.cons_val]
  repeat (first | rw [nullary_result] | rw [unary_result] | rw [reshape_result] | (rw [nullary_result_ne]; rotate_left; decide) | (rw [unary_result_ne]; rotate_left; decide) | (rw [reshape_result_ne]; rotate_left; decide))
  rfl

/-- The matrix read at (o, k): W[o, k] for k < 16, b[o] at k = 16, zero beyond. -/
theorem wc_apply (c : Dev nD) (o : Fin 16) (k : Fin 24) :
    (V m c main_v2 (ix2 o k) : EReal) = if hk : k.val < 16 then (m ((c : Thread nD τ).loc main_arg1) (ix2 o (⟨k.val, hk⟩ : Fin 16)) : EReal)
      else if k.val = 16 then (m ((c : Thread nD τ).loc main_arg2) (ix1 o) : EReal) else (0 : EReal) := by
  have e := wc_eq m c
  have e' : V m c main_v2 (ix2 o k) = concatenate S16x24 1
      [⟨S16x16, m ((c : Thread nD τ).loc main_arg1)⟩,
       ⟨S16x1, fun i => shapeCast S16x1 (m ((c : Thread nD τ).loc main_arg2)) shapeCasts_S16_S16x1 i⟩,
       ⟨S16x7, broadcastInDim S16x7 ![] bcast_S_S16x7 (constant (F := Ideal) S_ .f32 0x00000000#32)⟩]
      concatenates_S16x16_S16x1_S16x7_S16x24_d1 (ix2 o k) := congrFun e (ix2 o k)
  rw [e']
  have hk24 : k.val < 24 := k.isLt
  by_cases hk : k.val < 16
  · rw [dif_pos hk]
    exact concatenate_apply_piece 1 _ _ (ix2 o k) 0 (by show (0 : ℕ) < 3; omega) S16x16 _ rfl rfl 0 rfl (ix2 o (⟨k.val, hk⟩ : Fin 16))
      (fun b hb => by
        match b with
        | ⟨0, _⟩ => rfl
        | ⟨1, _⟩ => exact absurd rfl hb)
      (by show 0 + k.val = k.val; omega)
  · rw [dif_neg hk]
    by_cases hk16 : k.val = 16
    · rw [if_pos hk16]
      refine (concatenate_apply_piece 1 _ _ (ix2 o k) 1 (by show (1 : ℕ) < 3; omega) S16x1 _ rfl rfl 16 rfl (ix2 o (0 : Fin 1))
        (fun b hb => by
          match b with
          | ⟨0, _⟩ => rfl
          | ⟨1, _⟩ => exact absurd rfl hb)
        (by show 16 + 0 = k.val; omega)).trans ?_
      exact column_apply _ _ o 0
    · rw [if_neg hk16]
      refine (concatenate_apply_piece 1 _ _ (ix2 o k) 2 (by show (2 : ℕ) < 3; omega) S16x7 _ rfl rfl 17 rfl (ix2 o (⟨k.val - 17, by omega⟩ : Fin 7))
        (fun b hb => by
          match b with
          | ⟨0, _⟩ => rfl
          | ⟨1, _⟩ => exact absurd rfl hb)
        (by show 17 + (k.val - 17) = k.val; omega)).trans ?_
      refine (broadcastInDim_apply _ bcast_S_S16x7 _ _ ix0 (fun a => a.elim0)).trans ?_
      exact Ideal.ofBits_zero_f32

/-! ## The index maps, decided once over the grid -/

/-- Point t stages image and row-band (n, j) of x and of the result alike, on whole channel and column axes, and
    the whole matrix. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_2.index t (1 : Fin 4) = 0 ∧ win0_2.index t (3 : Fin 4) = 0
    ∧ win0_1.index t (0 : Fin 2) = 0 ∧ win0_1.index t (1 : Fin 2) = 0
    ∧ win0_2.index t (0 : Fin 4) < 8 ∧ win0_2.index t (2 : Fin 4) < 8 :=
  (by decide +kernel : ∀ t : Fin grid0.N, _)

/-- Every (image, row band) is some point's. -/
theorem idx_onto : ∀ (q0 : Fin 8) (q2 : Fin 8), ∃ t : Fin cfg0.N, win0_2.index t = ![q0.val, 0, q2.val, 0] :=
  (by decide +kernel : ∀ (q0 : Fin 8) (q2 : Fin 8), ∃ t : Fin grid0.N, win0_2.index t = ![q0.val, 0, q2.val, 0])

theorem hz4 : (![0, 0, 0, 0] : Fin 4 → Nat) = fun _ => 0 := funext fun a => by fin_cases a <;> rfl
theorem hz2 : (![0, 0] : Fin 2 → Nat) = fun _ => 0 := funext fun a => by fin_cases a <;> rfl

/-! ## One block -/

/-- The stored block at any of its indices. -/
theorem pay_at (v0 : Vec Ideal S1x16x64x512 .f32) (v13 : Vec Ideal S16x24 .f32) (y : S1x16x64x512.Idx) :
    k0_pay1 (F := Ideal) v0 v13 y = payAt v0 v13 (y 1) (y 2) (y 3) := by
  obtain ⟨a, o, r, w, rfl⟩ : ∃ (a : Fin 1) (o : Fin 16) (r : Fin 64) (w : Fin 512), y = ix4 a o r w :=
    ⟨y 0, y 1, y 2, y 3, eq_ix4 y⟩
  obtain rfl : a = 0 := Subsingleton.elim _ _
  exact Pay.pay_apply v0 v13 o r w

/-- A block of x that is x itself along one row of sites gives, on that row, the whole-array number. -/
theorem payAt_eq_kernAt (X : SX.Idx → EReal) (v0 : SBlk.Idx → EReal) (wc : SWc.Idx → EReal) (n : Fin 8) (r : Fin 64) (H : Fin 512)
    (hv : ∀ (k : Fin 16) (w : Fin 512), v0 (ix4 (0 : Fin 1) k r w) = X (ix4 n k H w)) (o : Fin 16) (w : Fin 512) :
    payAt v0 wc o r w = KernAt X wc n o H w := by
  unfold payAt KernAt
  refine Finset.sum_congr rfl fun k _ => ?_
  refine congrArg (wc (ix2 o k) * ·) ?_
  unfold augAt augX blockMask maskX siteAbs siteAbsX
  simp only [hv]

/-- The same, with the block's index `y` and its place `e` in the array as variables. -/
theorem blk_to_arr (X : SX.Idx → EReal) (WC v1 : SWc.Idx → EReal) (v0 : SBlk.Idx → EReal) (y : SBlk.Idx) (e : SX.Idx)
    (h1 : v1 = WC) (he1 : (e 1).val = (y 1).val) (he3 : (e 3).val = (y 3).val)
    (hv : ∀ (k : Fin 16) (w : Fin 512), v0 (ix4 (0 : Fin 1) k (y 2) w) = X (ix4 (e 0) k (e 2) w)) :
    payAt v0 v1 (y 1) (y 2) (y 3) = KernAt X WC (e 0) (e 1) (e 2) (e 3) := by
  subst h1
  have a1 : (e 1 : Fin 16) = (y 1 : Fin 16) := Fin.ext he1
  have a3 : (e 3 : Fin 512) = (y 3 : Fin 512) := Fin.ext he3
  rw [a1, a3]
  exact payAt_eq_kernAt X v0 v1 (e 0) (y 2) (e 2) hv (y 1) (y 3)

/-! ## From blocks to the array -/

/-- The kernel's whole-array function. -/
abbrev Kfun (X : SX.Idx → EReal) (WC : SWc.Idx → EReal) : SX.Idx → EReal := fun i => KernAt X WC (i 0) (i 1) (i 2) (i 3)

/-- What point t writes back is block t of the whole-array function. -/
theorem flushed_eq (c : Dev nD) (t : Fin cfg0.N) :
    (dats m 0 c).flushed 2 t = ((cfg0.win 2).blk t).view.read (Elt Ideal) (Kfun (m ((c : Thread nD τ).loc main_arg0)) (V m c main_v2)) := by
  show (cfg0.win 2).cut (grid0.coords t) ((dats m 0 c).after 2 t) = _
  rw [after_out]
  unfold outBlk
  rw [View.canon_unit_zero hz4]
  simp only [View.ld_unit_zero (S := S1x16x64x512) hz4, View.ld_unit_zero (S := S16x24) hz2]
  obtain ⟨e0, e1, e2, e3, e4, e5, e6, e7, e8, e9⟩ := idx_facts t
  funext y
  show k0_pay1 (F := Ideal) (iblk m c 0 t) (iblk m c 1 t) y = Kfun (m ((c : Thread nD τ).loc main_arg0)) (V m c main_v2) (((cfg0.win 2).blk t).view.emb y)
  refine (pay_at _ _ y).trans ?_
  refine blk_to_arr _ _ _ _ y (((cfg0.win 2).blk t).view.emb y) ?_ ?_ ?_ ?_
  · funext z
    show V m c main_v2 (((cfg0.win 1).blk t).view.emb z) = V m c main_v2 z
    refine congrArg _ (funext fun a => Fin.ext ?_)
    match a with
    | ⟨0, _⟩ => show win0_1.index t (0 : Fin 2) * 16 + 1 * (z 0).val = (z 0).val; omega
    | ⟨1, _⟩ => show win0_1.index t (1 : Fin 2) * 24 + 1 * (z 1).val = (z 1).val; omega
  · show win0_2.index t (1 : Fin 4) * 16 + 1 * (y 1).val = (y 1).val; omega
  · show win0_2.index t (3 : Fin 4) * 512 + 1 * (y 3).val = (y 3).val; omega
  · intro k w
    show V m c main_arg0 (((cfg0.win 0).blk t).view.emb (ix4 (0 : Fin 1) k (y 2) w))
      = m ((c : Thread nD τ).loc main_arg0) (ix4 ((((cfg0.win 2).blk t).view.emb y) 0) k ((((cfg0.win 2).blk t).view.emb y) 2) w)
    rw [V_main_arg0]
    refine congrArg _ (funext fun a => Fin.ext ?_)
    have hy0 : (y 0).val < 1 := (y 0).isLt
    match a with
    | ⟨0, _⟩ => show win0_0.index t (0 : Fin 4) * 1 + 1 * 0 = win0_2.index t (0 : Fin 4) * 1 + 1 * (y 0).val; omega
    | ⟨1, _⟩ => show win0_0.index t (1 : Fin 4) * 16 + 1 * k.val = k.val; omega
    | ⟨2, _⟩ => show win0_0.index t (2 : Fin 4) * 64 + 1 * (y 2).val = win0_2.index t (2 : Fin 4) * 64 + 1 * (y 2).val; omega
    | ⟨3, _⟩ => show win0_0.index t (3 : Fin 4) * 512 + 1 * w.val = w.val; omega

/-- An index of the array is in point t's block iff each coordinate is in the block's range on its axis. -/
theorem mem_blk (t : Fin cfg0.N) (i : S8x16x512x512.Idx) :
    i ∈ ((cfg0.win 2).blk t).view.set ↔ ∀ a : Fin 4, win0_2.index t a * S1x16x64x512.size a ≤ (i a).val
      ∧ (i a).val < win0_2.index t a * S1x16x64x512.size a + S1x16x64x512.size a := by
  show i ∈ ((View.whole main_v3).slice (win0_2.rect t)).set ↔ _
  rw [View.set_slice_whole, Rect.mem_set_unit]
  exact Iff.rfl

/-- The blocks tile the array: index (n, o, h, w) lies in the block of the point that stages image n, rows 64 (h / 64) … -/
theorem covered (i : S8x16x512x512.Idx) :
    ∃ t : Fin cfg0.N, (cfg0.win 2).flush t = true ∧ i ∈ ((cfg0.win 2).blk t).view.set := by
  have hi0 : (i 0).val < 8 := (i 0).isLt
  have hi1 : (i 1).val < 16 := (i 1).isLt
  have hi2 : (i 2).val < 512 := (i 2).isLt
  have hi3 : (i 3).val < 512 := (i 3).isLt
  obtain ⟨t, ht⟩ := idx_onto ⟨(i 0).val, hi0⟩ ⟨(i 2).val / 64, by omega⟩
  have q0 : win0_2.index t (0 : Fin 4) = (i 0).val := congrFun ht 0
  have q1 : win0_2.index t (1 : Fin 4) = 0 := congrFun ht 1
  have q2 : win0_2.index t (2 : Fin 4) = (i 2).val / 64 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 64 ≤ (i 2).val ∧ (i 2).val < win0_2.index t (2 : Fin 4) * 64 + 64; omega
  | ⟨3, _⟩ => show win0_2.index t (3 : Fin 4) * 512 ≤ (i 3).val ∧ (i 3).val < win0_2.index t (3 : Fin 4) * 512 + 512; omega

/-- The result array after the run is the kernel's whole-array function. -/
theorem final (c : Dev nD) :
    (dats m 0 c).arrAt 2 cfg0.N = Kfun (m ((c : Thread nD τ).loc main_arg0)) (V m c main_v2) :=
  (dats m 0 c).arrAt_eq_of_cover 2 _ (fun t _ => flushed_eq m c t) covered

/-- With the staged matrix read as [W | b | 0], the kernel's function is the specification. -/
theorem kfun_eq_G (c : Dev nD) :
    Kfun (m ((c : Thread nD τ).loc main_arg0)) (V m c main_v2)
      = G (m ((c : Thread nD τ).loc main_arg0)) (m ((c : Thread nD τ).loc main_arg1)) (m ((c : Thread nD τ).loc main_arg2)) := by
  funext i
  exact kern_eq_G _ _ _ _ (wc_apply m c) (i 0) (i 1) (i 2) (i 3)

/-! ## The run, read -/

/-- Every weakly fair execution of the idealized kernel's @main terminates with the result array at the specification
    of the launched arguments, and the arguments unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(((h c).1 2).trans (final m c)).trans (kfun_eq_G m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.SpConv.KVal

end
-- ==== Proof.RefValue.lean ====
/-
  The reference program's value is the specification G.

  The reference moves the channel axis last, contracts it against the weight, adds the bias, and multiplies by a 0/1
  factor: the "or" over the channels of "this channel is not zero", converted to a number. At a site that "or" is 1
  exactly when some channel is non-zero there, which is the site's activity; every other operation reads through at an
  index.
-/
import proofs.«160969_g24369644438240_cont_8to1_380_7_alg».proof.Proof.Spec
import proofs.«160969_g24369644438240_cont_8to1_380_7_alg».proof.Proof.Gen.ReferenceIdeal.Read
import Idealize.ShloMosaic.PureOps.Reduce
import Idealize.ShloMosaic.PureOps.Ideal.Laws
import Idealize.ShloMosaic.Lib.ValueIdx

noncomputable section

namespace Cert.SpConv.Ref

open Cert.ReferenceIdeal Cert.ReferenceIdeal.Read Idealize.ShloMosaic Idealize.ShloMosaic.ValueIdx

/-! ## An "or" over one-bit words -/

/-- The "or" of two one-bit words is 1 exactly when one of them is. -/
theorem ori_eq_one_iff (a b : BitVec 1) : IntOp.ori a b = 1#1 ↔ a = 1#1 ∨ b = 1#1 := by
  rcases BitVec.eq_zero_or_eq_one a with h | h <;> rcases BitVec.eq_zero_or_eq_one b with h' | h' <;>
    subst h <;> subst h' <;> decide

/-- A left fold by "or" over one-bit words comes out 1 exactly when it started at 1 or met a 1. -/
theorem foldl_ori_eq_one_iff {ι : Type} (f : ι → BitVec 1) :
    ∀ (l : List ι) (init : BitVec 1),
      l.foldl (fun r n => IntOp.ori r (f n)) init = 1#1 ↔ (init = 1#1 ∨ ∃ n ∈ l, f n = 1#1)
  | [], init => by simp
  | a :: l, init => by
    rw [List.foldl_cons, foldl_ori_eq_one_iff f l, ori_eq_one_iff]
    simp only [List.mem_cons, exists_eq_or_imp, or_assoc]

/-- A reduction by "or" from the initial value 0 is 1 at j exactly when some operand element reducing into j is 1. -/
theorem reduce_ori_eq_one_iff {s t u : Shape} {axes : List (Fin s.rank)} (x : s.Idx → BitVec 1)
    (init : u.Idx → BitVec 1) (h : s.ReducesTo axes t) (hu : 0 < u.numel) (h0 : init (Shape.Idx.first hu) = 0#1)
    (j : t.Idx) :
    Host.reduce IntOp.ori x init h hu j = 1#1 ↔ ∃ i, h.drop i = j ∧ x i = 1#1 := by
  rw [Host.reduce_eq_foldl, foldl_ori_eq_one_iff, h0]
  constructor
  · rintro (h1 | ⟨i, hi, hx⟩)
    · exact absurd h1 (by decide)
    · rw [List.mem_filter] at hi
      exact ⟨i, by simpa using hi.2, hx⟩
  · rintro ⟨i, hi, hx⟩
    refine Or.inr ⟨i, ?_, hx⟩
    rw [List.mem_filter]
    exact ⟨List.mem_map.2 ⟨s.rowMajor i, List.mem_finRange _, Equiv.symm_apply_apply _ _⟩, by simp [hi]⟩

/-! ## The indices that reduce into a site -/

/-- The channel-last index (n, h, w, c) drops, over the channel axis, to the site (n, h, w). -/
theorem drop_ix4 (hr : S8x512x512x16.ReducesTo [3] S8x512x512) (n : Fin 8) (h w : Fin 512) (c : Fin 16) :
    hr.drop (ix4 n h w c) = ix3 n h w := by
  funext b
  refine Fin.ext ?_
  match b with
  | ⟨0, _⟩ => exact hr.drop_apply_val_of_eq (ix4 n h w c) 0 0
  | ⟨1, _⟩ => exact hr.drop_apply_val_of_eq (ix4 n h w c) 1 1
  | ⟨2, _⟩ => exact hr.drop_apply_val_of_eq (ix4 n h w c) 2 2

/-- An index that drops to the site (n, h, w) is (n, h, w, c) for its own channel c. -/
theorem exists_ix4_of_drop (hr : S8x512x512x16.ReducesTo [3] S8x512x512) (i : S8x512x512x16.Idx) (n : Fin 8)
    (h w : Fin 512) (e : hr.drop i = ix3 n h w) : ∃ c : Fin 16, i = ix4 n h w c := by
  refine ⟨i 3, funext fun a => Fin.ext ?_⟩
  match a with
  | ⟨0, _⟩ => exact (hr.drop_apply_val_of_eq i 0 0).symm.trans (congrArg (fun j : S8x512x512.Idx => (j 0).val) e)
  | ⟨1, _⟩ => exact (hr.drop_apply_val_of_eq i 1 1).symm.trans (congrArg (fun j : S8x512x512.Idx => (j 1).val) e)
  | ⟨2, _⟩ => exact (hr.drop_apply_val_of_eq i 2 2).symm.trans (congrArg (fun j : S8x512x512.Idx => (j 2).val) e)
  | ⟨3, _⟩ => rfl

/-! ## The activity bit -/

/-- The comparison's bit at (n, h, w, c) is 1 exactly when channel c of the site is not zero. -/
theorem v2_eq_one_iff (x : (⟨S8x16x512x512, .f32⟩ : BufTy).Contents (Elt Ideal)) (n : Fin 8) (h w : Fin 512)
    (c : Fin 16) : val_main_v2 (F := Ideal) x (ix4 n h w c) = 1#1 ↔ x (ix4 n c h w) ≠ 0 := by
  rw [val_main_v2_apply, val_main_v0_apply, val_main_v1_apply, val_main_cst_apply,
    show idx_main_v0 (ix4 n h w c) = ix4 n c h w from funext fun a => Fin.ext (by
      match a with | ⟨0, _⟩ => rfl | ⟨1, _⟩ => rfl | ⟨2, _⟩ => rfl | ⟨3, _⟩ => rfl),
    Ideal.cmpf_def, Ideal.ofBits_def, Ideal.ofBits_zero_f32]
  unfold Ideal.cmp
  by_cases hx : x (ix4 n c h w) = 0
  · simp [hx]
  · simp [hx]

/-- The reduced bit at the site (n, h, w) is 1 exactly when some channel of the site is not zero. -/
theorem v3_eq_one_iff (x : (⟨S8x16x512x512, .f32⟩ : BufTy).Contents (Elt Ideal)) (n : Fin 8) (h w : Fin 512) :
    val_main_v3 (F := Ideal) x (ix3 n h w) = 1#1 ↔ ∃ c : Fin 16, x (ix4 n c h w) ≠ 0 := by
  unfold val_main_v3
  rw [reduce_ori_eq_one_iff _ _ _ _ rfl]
  constructor
  · rintro ⟨i, hi, hx⟩
    obtain ⟨c, rfl⟩ := exists_ix4_of_drop _ i n h w hi
    exact ⟨c, (v2_eq_one_iff x n h w c).1 hx⟩
  · rintro ⟨c, hc⟩
    exact ⟨ix4 n h w c, drop_ix4 _ n h w c, (v2_eq_one_iff x n h w c).2 hc⟩

/-- The 0/1 factor at a site, the reduced bit read as a number, is the site's activity. -/
theorem factor_eq_active (x : (⟨S8x16x512x512, .f32⟩ : BufTy).Contents (Elt Ideal)) (n : Fin 8) (h w : Fin 512) :
    FloatOps.uitofp (F := Ideal) .f32 (val_main_v3 (F := Ideal) x (ix3 n h w)) = active x n h w := by
  unfold active
  by_cases hA : ∃ c : Fin 16, x (ix4 n c h w) ≠ 0
  · rw [if_pos hA, (v3_eq_one_iff x n h w).2 hA]
    show (((1#1 : BitVec 1).toNat : ℝ) : EReal) = 1
    simp
  · rw [if_neg hA, eq_zero_of_ne_one (fun e => hA ((v3_eq_one_iff x n h w).1 e))]
    show (((0#1 : BitVec 1).toNat : ℝ) : EReal) = 0
    simp

/-! ## The reference is the specification -/

/-- At every index the reference's result is the site's linear map plus the bias, times the site's activity. -/
theorem ref_eq (x : (⟨Cert.ReferenceIdeal.S8x16x512x512, .f32⟩ : BufTy).Contents (Elt Ideal))
    (W : (⟨Cert.ReferenceIdeal.S16x16, .f32⟩ : BufTy).Contents (Elt Ideal))
    (b : (⟨Cert.ReferenceIdeal.S16, .f32⟩ : BufTy).Contents (Elt Ideal)) :
    Cert.ReferenceIdeal.Read.val_main_v12 (F := Ideal) x W b = Cert.SpConv.G x W b := by
  funext i
  obtain ⟨n, o, h, w, rfl⟩ : ∃ (n : Fin 8) (o : Fin 16) (h w : Fin 512), i = ix4 n o h w :=
    ⟨i 0, i 1, i 2, i 3, eq_ix4 i⟩
  have e12 : idx_main_v12 (ix4 n o h w) = ix4 n h w o := funext fun a => Fin.ext (by
    match a with | ⟨0, _⟩ => rfl | ⟨1, _⟩ => rfl | ⟨2, _⟩ => rfl | ⟨3, _⟩ => rfl)
  have el : ∀ k : Fin 16, idx_main_v0 (lidx_main_v4 (ix4 n h w o) k) = ix4 n k h w := fun k =>
    funext fun a => Fin.ext (by match a with | ⟨0, _⟩ => rfl | ⟨1, _⟩ => rfl | ⟨2, _⟩ => rfl | ⟨3, _⟩ => rfl)
  have er : ∀ k : Fin 16, ridx_main_v4 (ix4 n h w o) k = ix2 o k := fun k =>
    funext fun a => Fin.ext (by match a with | ⟨0, _⟩ => rfl | ⟨1, _⟩ => rfl)
  have e5 : idx_main_v5 (idx_main_v6 (ix4 n h w o)) = ix1 o := funext fun a => Fin.ext (by
    match a with | ⟨0, _⟩ => rfl)
  have e8 : idx_main_v8 (idx_main_v10 (ix4 n h w o)) = ix3 n h w := funext fun a => Fin.ext (by
    match a with | ⟨0, _⟩ => rfl | ⟨1, _⟩ => rfl | ⟨2, _⟩ => rfl)
  rw [val_main_v12_apply, e12, val_main_v11_apply, val_main_v7_apply, val_main_v4_apply, val_main_v6_apply,
    val_main_v5_apply, e5, val_main_v10_apply, val_main_v9_apply, val_main_v8_apply, e8, factor_eq_active]
  simp only [val_main_v0_apply, el, er, Ideal.mulf_def, Ideal.addf_def]
  rfl

end Cert.SpConv.Ref

end
-- ==== Proof.lean ====
/-
  A 1 x 1 sparse convolution in channel-major layout, against its dense reference.

  Input x[n, c, h, w] (8 images, 16 channels, 512 x 512 sites), weight W[o, c] (16 x 16), bias b[o]. A site is active
  when some channel of x is non-zero there; the result is (sum_c x[n, c, h, w] W[o, c] + b[o]) at the active sites and
  zero at the others (`Cert.SpConv.G`, Proof/Spec.lean).

  The reference computes exactly that: it moves the channels last, tests  x ≠ 0  and or-reduces over the channels, contracts
  the channels against W, adds b, multiplies by the 0/1 activity and moves the channels back (Proof/RefValue.lean).

  The kernel never moves the channels. On the host it assembles the 16 x 24 matrix [W | b | 0]; on a grid of 8 x 8
  points it takes sixty-four rows of sites of one image at a time, tests activity by 0 < sum_c |x_c| (a product with a
  matrix of ones), stacks eight copies of the 0/1 activity row under the sixteen channel rows, and multiplies by the
  matrix: row o gives  sum_c W[o, c] x_c + b[o] * activity + 0 * activity  (Proof/Payload.lean, Proof/KernelValue.lean).

  Over the extended reals the two agree with no condition on the inputs: a sum of the non-negative numbers |x_c| is
  positive exactly when some x_c is non-zero; at an active site both sides are the same sum, reordered; at an inactive
  site every x_c is 0 and both sides are 0, because 0 * a = 0 there for every a, the infinities included
  (Proof/Algebra.lean). So the finiteness precondition is not used.

  The frames: the reference is host operations only; each kernel program is four host operations and one pipelined
  region whose body loads two staged inputs and stores one whole output block (Proof/FrameK.lean, Proof/FrameKI.lean —
  one text at the two instances). Nothing was rewritten between the kernel and its idealization, so `preserves` is `True`.
-/
import proofs.«160969_g24369644438240_cont_8to1_380_7_alg».proof.Defs
import proofs.«160969_g24369644438240_cont_8to1_380_7_alg».proof.Proof.Gen.Kernel
import proofs.«160969_g24369644438240_cont_8to1_380_7_alg».proof.Proof.Gen.KernelIdeal
import proofs.«160969_g24369644438240_cont_8to1_380_7_alg».proof.Proof.Gen.ReferenceIdeal
import proofs.«160969_g24369644438240_cont_8to1_380_7_alg».proof.Proof.Gen.Pre_finite_inputs
import proofs.«160969_g24369644438240_cont_8to1_380_7_alg».proof.Proof.Gen.ReferenceIdeal.Run
import proofs.«160969_g24369644438240_cont_8to1_380_7_alg».proof.Proof.Gen.ReferenceIdeal.Read
import proofs.«160969_g24369644438240_cont_8to1_380_7_alg».proof.Proof.FrameK
import proofs.«160969_g24369644438240_cont_8to1_380_7_alg».proof.Proof.FrameKI
import proofs.«160969_g24369644438240_cont_8to1_380_7_alg».proof.Proof.KernelValue
import proofs.«160969_g24369644438240_cont_8to1_380_7_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to its end and leaves x, W and b as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on x, W and b, the idealized kernel's result array and the idealized reference's both
    end at the specification `G` of those arguments. -/
theorem algebraic : Cert.algebraic_KernelIdeal_ReferenceIdeal := by
  intro m ρ m' ρ' _ hagree
  refine ⟨fun c => Cert.SpConv.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.SpConv.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.SpConv.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
